-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S256x128 : Shape := ⟨2, ![256, 128]⟩
abbrev S256 : Shape := ⟨1, ![256]⟩
abbrev S40x256 : Shape := ⟨2, ![40, 256]⟩
abbrev S40 : Shape := ⟨1, ![40]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S40x256 : S_.BroadcastsInDim S40x256 (![] : Fin 0 → Fin S40x256.rank)
  reducesTo_S40x256_S_d0_1 : S40x256.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40x256 .f32) (main_arg5 : FVec F S40 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S40x256 .f32 := Host.absf main_arg4
  let main_cst_6 : FVec F S_ .f32 := constant S_ .f32 0x7F800000#32
  let main_v20 : FVec F S40x256 .f32 := broadcastInDim S40x256 ![] bcast_S_S40x256 main_cst_6
  let main_v21 : IVec S40x256 1 := cmpf .olt main_v19 main_v20
  let main_c_7 : IVec S_ 1 := constantI S_ 1 1#1
  let main_v22 : IVec S_ 1 := (fun x v => Host.reduce IntOp.andi x v reducesTo_S40x256_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x128 .f32) (main_arg1 : FVec F S256x128 .f32) (main_arg2 : FVec F S256 .f32) (main_arg3 : FVec F S256x128 .f32) (main_arg4 : FVec F S40x256 .f32) (main_arg5 : FVec F S40 .f32) (main_arg6 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_v13 main_v16
-- ==== Kernel.lean ====
abbrev S50000x128 : Shape := ⟨2, ![50000, 128]⟩
abbrev S256x128 : Shape := ⟨2, ![256, 128]⟩
abbrev S256 : Shape := ⟨1, ![256]⟩
abbrev S40x256 : Shape := ⟨2, ![40, 256]⟩
abbrev S40 : Shape := ⟨1, ![40]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S256x40 : Shape := ⟨2, ![256, 40]⟩
abbrev S1x256 : Shape := ⟨2, ![1, 256]⟩
abbrev S1x40 : Shape := ⟨2, ![1, 40]⟩
abbrev S50000x40 : Shape := ⟨2, ![50000, 40]⟩
abbrev S5000x128 : Shape := ⟨2, ![5000, 128]⟩
abbrev S5000x40 : Shape := ⟨2, ![5000, 40]⟩
abbrev S5000x256 : Shape := ⟨2, ![5000, 256]⟩

abbrev nBuf : Space → Nat
  | .hbm => 42
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S256x128, .f32⟩
  | .hbm, ⟨2, _⟩ => ⟨S256, .f32⟩
  | .hbm, ⟨3, _⟩ => ⟨S256x128, .f32⟩
  | .hbm, ⟨4, _⟩ => ⟨S40x256, .f32⟩
  | .hbm, ⟨5, _⟩ => ⟨S40, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x256, .f32⟩
  | .hbm, ⟨37, _⟩ => ⟨S128x256, .f32⟩
  | .hbm, ⟨38, _⟩ => ⟨S256x40, .f32⟩
  | .hbm, ⟨39, _⟩ => ⟨S1x256, .f32⟩
  | .hbm, ⟨40, _⟩ => ⟨S1x40, .f32⟩
  | .hbm, ⟨41, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S256x40, .f32⟩
  | .local _ .vmem, ⟨8, _⟩ => ⟨S1x40, .f32⟩
  | .local _ .vmem, ⟨9, _⟩ => ⟨S5000x40, .f32⟩
  | .local _ .vmem, ⟨10, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x40 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  transposes_S40x256_S256x40_1_0 : S40x256.Transposes [1, 0] S256x40
  shapeCasts_S256_S1x256 : S256.ShapeCasts S1x256
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x256_S5000x256 : S1x256.Broadcasts S5000x256
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x256_S5000x256_1_0_0_1_n_n_wf : DotDims.WF S5000x128 S128x256 S5000x256 [1] [0] [0] [1] [] []
  dot_S5000x256_S256x40_S5000x40_1_0_0_1_n_n_wf : DotDims.WF S5000x256 S256x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x40.size a ≤ S256x40.size a
  hwx0_5 : ∀ i : grid0.Coords, EltTy.bits .f32 = 32 ∨ (Rect.block (s := S256x40) S256x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x40.size a ≤ S1x40.size a
  hwx0_6 : ∀ i : grid0.Coords, EltTy.bits .f32 = 32 ∨ (Rect.block (s := S1x40) S1x40.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x40.size a ≤ S50000x40.size a
  hwx0_7 : ∀ i : grid0.Coords, EltTy.bits .f32 = 32 ∨ (Rect.block (s := S50000x40) S5000x40.size (cc0_transform_7 i) (hinb0_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S256x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S5000x40.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S256x128 : Shape := ⟨2, ![256, 128]⟩
abbrev S256 : Shape := ⟨1, ![256]⟩
abbrev S40x256 : Shape := ⟨2, ![40, 256]⟩
abbrev S40 : Shape := ⟨1, ![40]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩
abbrev S256x40 : Shape := ⟨2, ![256, 40]⟩
abbrev S50000x40 : Shape := ⟨2, ![50000, 40]⟩
abbrev S1x40 : Shape := ⟨2, ![1, 40]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S256x128, .f32⟩
  | .hbm, ⟨2, _⟩ => ⟨S256, .f32⟩
  | .hbm, ⟨3, _⟩ => ⟨S256x128, .f32⟩
  | .hbm, ⟨4, _⟩ => ⟨S40x256, .f32⟩
  | .hbm, ⟨5, _⟩ => ⟨S40, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x256, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S128x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S50000x256, .f32⟩
  | .hbm, ⟨46, _⟩ => ⟨S50000x256, .f32⟩
  | .hbm, ⟨47, _⟩ => ⟨S256x40, .f32⟩
  | .hbm, ⟨48, _⟩ => ⟨S50000x40, .f32⟩
  | .hbm, ⟨49, _⟩ => ⟨S1x40, .f32⟩
  | .hbm, ⟨50, _⟩ => ⟨S50000x40, .f32⟩
  | .hbm, ⟨51, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S40x256_S256x40_1_0 : S40x256.Transposes [1, 0] S256x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  dot_S50000x256_S256x40_S50000x40_1_0_0_1_n_n_wf : DotDims.WF S50000x256 S256x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.SageSpec.lean ====
/-
  What the fused layer computes, entry by entry, on the extended reals.

  Given the mean-aggregated neighbour features `mean` and the node features `x` (R rows of 128 each), two weight
  matrices `wl`, `wr` (128 × 256, already transposed), a bias `bl` (256 entries), an output weight matrix `wm`
  (256 × 40) and an output bias `bm` (40 entries):

      hidden(r, k) = Σ_a mean(r, a) · wl(a, k)  +  Σ_a x(r, a) · wr(a, k)  +  bl(k)
      out(r, j)    = Σ_k max(hidden(r, k), 0) · wm(k, j)  +  bm(j).

  Row r of the result depends on row r of `mean` and of `x` only, so a block of rows of the result is the same
  function of the matching blocks of rows of the two inputs (`outAt_rows`).

  The kernel adds the bias after both products, the reference between them. Addition of extended reals is
  commutative and associative (with −∞ absorbing), so the two groupings are equal with no finiteness asked
  (`hiddenAt_bias_between`).
-/
import Idealize.ShloMosaic.PureOps.Ideal
import Idealize.ShloMosaic.Lib.ValueIdx

noncomputable section

open scoped BigOperators

namespace Cert.Sage

open Idealize.ShloMosaic Idealize.ShloMosaic.ValueIdx

variable {R : Nat}

/-- The hidden layer before the rectifier, at row `r` and hidden unit `k`: the neighbour mean through `wl`, plus
    the node's own features through `wr`, plus the bias. -/
def hiddenAt (mean x : (⟨2, ![R, 128]⟩ : Shape).Idx → EReal) (wl wr : (⟨2, ![128, 256]⟩ : Shape).Idx → EReal)
    (bl : Fin 256 → EReal) (r : Fin R) (k : Fin 256) : EReal :=
  (∑ a : Fin 128, mean (ix2 r a) * wl (ix2 a k)) + (∑ a : Fin 128, x (ix2 r a) * wr (ix2 a k)) + bl k

/-- The output at row `r` and class `j`: the rectified hidden layer through `wm`, plus the output bias. -/
def outAt (mean x : (⟨2, ![R, 128]⟩ : Shape).Idx → EReal) (wl wr : (⟨2, ![128, 256]⟩ : Shape).Idx → EReal)
    (bl : Fin 256 → EReal) (wm : (⟨2, ![256, 40]⟩ : Shape).Idx → EReal) (bm : Fin 40 → EReal)
    (r : Fin R) (j : Fin 40) : EReal :=
  (∑ k : Fin 256, max (hiddenAt mean x wl wr bl r k) 0 * wm (ix2 k j)) + bm j

/-- The whole output array, index by index. -/
def out (mean x : (⟨2, ![R, 128]⟩ : Shape).Idx → EReal) (wl wr : (⟨2, ![128, 256]⟩ : Shape).Idx → EReal)
    (bl : Fin 256 → EReal) (wm : (⟨2, ![256, 40]⟩ : Shape).Idx → EReal) (bm : Fin 40 → EReal) :
    (⟨2, ![R, 40]⟩ : Shape).Idx → EReal :=
  fun i => outAt mean x wl wr bl wm bm ⟨(i 0).val, idx2_lt0 i⟩ ⟨(i 1).val, idx2_lt1 i⟩

/-- The output array at the index with coordinates (r, j). -/
theorem out_ix2 (mean x : (⟨2, ![R, 128]⟩ : Shape).Idx → EReal) (wl wr : (⟨2, ![128, 256]⟩ : Shape).Idx → EReal)
    (bl : Fin 256 → EReal) (wm : (⟨2, ![256, 40]⟩ : Shape).Idx → EReal) (bm : Fin 40 → EReal)
    (r : Fin R) (j : Fin 40) :
    out mean x wl wr bl wm bm (ix2 r j) = outAt mean x wl wr bl wm bm r j := rfl

/-- With the bias added between the two products instead of after them, the hidden layer is the same. -/
theorem hiddenAt_bias_between (mean x : (⟨2, ![R, 128]⟩ : Shape).Idx → EReal)
    (wl wr : (⟨2, ![128, 256]⟩ : Shape).Idx → EReal) (bl : Fin 256 → EReal) (r : Fin R) (k : Fin 256) :
    (∑ a : Fin 128, mean (ix2 r a) * wl (ix2 a k)) + bl k + (∑ a : Fin 128, x (ix2 r a) * wr (ix2 a k))
      = hiddenAt mean x wl wr bl r k :=
  add_right_comm _ _ _

/-- A BLOCK OF ROWS: if row `p` of the blocks `mean'`, `x'` is row `row p` of the arrays `mean`, `x`, the output
    computed from the blocks at (p, j) is the output computed from the arrays at (row p, j). -/
theorem outAt_rows {R' : Nat} (row : Fin R' → Fin R)
    (mean x : (⟨2, ![R, 128]⟩ : Shape).Idx → EReal) (mean' x' : (⟨2, ![R', 128]⟩ : Shape).Idx → EReal)
    (wl wr : (⟨2, ![128, 256]⟩ : Shape).Idx → EReal) (bl : Fin 256 → EReal)
    (wm : (⟨2, ![256, 40]⟩ : Shape).Idx → EReal) (bm : Fin 40 → EReal)
    (hmean : ∀ (p : Fin R') (a : Fin 128), mean' (ix2 p a) = mean (ix2 (row p) a))
    (hx : ∀ (p : Fin R') (a : Fin 128), x' (ix2 p a) = x (ix2 (row p) a))
    (p : Fin R') (j : Fin 40) :
    outAt mean' x' wl wr bl wm bm p j = outAt mean x wl wr bl wm bm (row p) j := by
  unfold outAt hiddenAt
  simp only [hmean, hx]

end Cert.Sage

end
-- ==== Proof.KernelPayload.lean ====
/-
  The kernel body's arithmetic at one entry, at the ideal values.

  The body loads a block of rows of the neighbour means and of the node features, the two first-layer weight
  matrices, the two bias rows and the output weight matrix, and stores one value: with every change of float
  format the identity on the extended reals, and each product into a zero accumulator the plain sum over the
  contracted coordinate, the stored block holds at (p, q)

      Σ_k max( Σ_a mean(p, a)·wl(a, k) + Σ_a x(p, a)·wr(a, k) + bl(0, k), 0 ) · wm(k, q) + bm(0, q),

  which is the layer's output (`Cert.Sage.outAt`) computed from the loaded blocks.
-/
import proofs.«174425_j49323404427444_1_alg».proof.Proof.Gen.KernelIdeal.Skeleton
import proofs.«174425_j49323404427444_1_alg».proof.Proof.LibPlainDot
import proofs.«174425_j49323404427444_1_alg».proof.Proof.LibRowVector
import proofs.«174425_j49323404427444_1_alg».proof.Proof.SageSpec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The first layer's dimension numbers are the plain 5000×128 by 128×256 product's. -/
theorem dot1_plain : dot_S5000x128_S128x256_S5000x256_1_0_0_1_n_n = DotDims.plain 5000 128 256 := rfl

/-- The output layer's dimension numbers are the plain 5000×256 by 256×40 product's. -/
theorem dot2_plain : dot_S5000x256_S256x40_S5000x40_1_0_0_1_n_n = DotDims.plain 5000 256 40 := rfl

/-- A first-layer product into the zero accumulator at (p, k): the sum over the 128 features. -/
theorem mm1_apply {φ₁ φ₂ : FTy} (A : FVec Ideal S5000x128 φ₁) (B : FVec Ideal S128x256 φ₂) (p : Fin 5000) (k : Fin 256) :
    matmul dot_S5000x128_S128x256_S5000x256_1_0_0_1_n_n none A B (constant (F := Ideal) S5000x256 .f32 0x00000000#32) (ix2 p k)
      = ∑ a : Fin 128, A (ix2 p a) * B (ix2 a k) :=
  Cert.PlainDot.matmul_zero_apply _ dot1_plain none A B p k

/-- The output-layer product into the zero accumulator at (p, q): the sum over the 256 hidden units. -/
theorem mm2_apply {φ₁ φ₂ : FTy} (A : FVec Ideal S5000x256 φ₁) (B : FVec Ideal S256x40 φ₂) (p : Fin 5000) (q : Fin 40) :
    matmul dot_S5000x256_S256x40_S5000x40_1_0_0_1_n_n none A B (constant (F := Ideal) S5000x40 .f32 0x00000000#32) (ix2 p q)
      = ∑ k : Fin 256, A (ix2 p k) * B (ix2 k q) :=
  Cert.PlainDot.matmul_zero_apply _ dot2_plain none A B p q

/-- THE STORED VALUE AT (p, q) is the layer's output computed from the loaded blocks. -/
theorem pay_apply (v0 v3 : Vec Ideal S5000x128 .f32) (v5 v8 : Vec Ideal S128x256 .f32) (v11 : Vec Ideal S256x40 .f32)
    (v14 : Vec Ideal S1x256 .f32) (v16 : Vec Ideal S1x40 .f32) (p : Fin 5000) (q : Fin 40) :
    k0_pay1 (F := Ideal) v0 v3 v5 v8 v11 v14 v16 (ix2 p q)
      = Cert.Sage.outAt (R := 5000) v0 v3 v5 v8 (fun k => v14 (ix2 0 k)) v11 (fun j => v16 (ix2 0 j)) p q := by
  unfold k0_pay1
  simp only [shapeCast_self]
  rw [addf_apply, mm2_apply, Cert.RowVector.broadcastTo_row (by decide)]
  unfold Cert.Sage.outAt Cert.Sage.hiddenAt
  refine congrArg (· + v16 (ix2 0 q)) (Finset.sum_congr rfl fun k _ => ?_)
  rw [truncf_apply, truncf_apply, maximumf_apply, addf_apply, addf_apply, mm1_apply, mm1_apply,
    Cert.RowVector.broadcastTo_row (by decide), broadcast_apply, Ideal.ofBits_def, Ideal.ofBits_zero_f32]
  simp only [truncf_apply]

end Cert.KernelIdeal.Payload

end
-- ==== Proof.KernelValue.lean ====
/-
  The kernel's result array as one function of the arrays the region finds.

  The grid has ten points. Point t is handed rows 5000·t … 5000·t + 4999 of the neighbour means and of the node
  features, and every point is handed the whole of the two first-layer weight matrices, the two bias rows and the
  output weight matrix; it writes rows 5000·t … 5000·t + 4999 of the result. A row of the layer's output depends
  on the same row of the two inputs only, so what point t writes back is block t of the layer's output computed
  from the whole arrays (`flushed_eq`); the ten blocks tile the 50000 rows (`cover`), so after the run the
  result array is that output (`final`, `run`).
-/
import proofs.«174425_j49323404427444_1_alg».proof.Proof.Gen.KernelIdeal.Value
import proofs.«174425_j49323404427444_1_alg».proof.Proof.KernelPayload

noncomputable section

open scoped BigOperators

namespace Cert.KernelIdeal.Fused

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the ten grid points: the two row-blocked inputs move with the result's
    block of rows; the five whole-array inputs stay at block (0, 0); the result's block row is at most 9 and its
    block column 0. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 9 ∧ win0_7.index t (1 : Fin 2) = 0 :=
  (by decide +kernel : ∀ t : Fin grid0.N, _)

/-- Every one of the ten blocks of rows is some point's. -/
theorem idx_onto : ∀ q0 : Fin 10, ∃ t : Fin cfg0.N, win0_7.index t = ![q0.val, 0] :=
  (by decide +kernel : ∀ q0 : Fin 10, ∃ t : Fin grid0.N, win0_7.index t = ![q0.val, 0])

/-- The array row under row `p` of point `t`'s block. -/
def rowOf (t : Fin cfg0.N) (p : Fin 5000) : Fin 50000 :=
  ⟨win0_7.index t (0 : Fin 2) * 5000 + p.val, by
    obtain ⟨-, -, -, -, -, -, -, -, -, -, -, -, -, -, h, -⟩ := idx_facts t
    have := p.isLt
    omega⟩

/-- The layer's output computed from the arrays as the region finds them. Kept opaque: every lemma below opens it
    by name, at one entry. -/
@[irreducible] def G (c : Dev nD) : S50000x40.Idx → EReal :=
  Cert.Sage.out (R := 50000) (V m c main_v22) (V m c main_arg0) (V m c main_v23) (V m c main_v24)
    (fun k => V m c main_v26 (ix2 0 k)) (V m c main_v25) (fun j => V m c main_v27 (ix2 0 j))

/-! ## The blocks a point is handed

Each is stated first for an ARBITRARY array `X` read through the window's block (the index arithmetic only), then
for the array the region finds. -/

/-- Row `p` of point `t`'s block of the first input window is row `rowOf t p` of the array under it. -/
theorem rows0 (t : Fin cfg0.N) (X : S50000x128.Idx → EReal) (p : Fin 5000) (a : Fin 128) :
    ((cfg0.win 0).blk t).view.read (Elt Ideal) X (ix2 p a) = X (ix2 (rowOf t p) a) := by
  obtain ⟨e0, e1, -⟩ := idx_facts t
  show X (((cfg0.win 0).blk t).view.emb (ix2 p a)) = _
  refine congrArg X (funext fun d => Fin.ext ?_)
  match d with
  | ⟨0, _⟩ =>
    show win0_0.index t (0 : Fin 2) * 5000 + 1 * p.val = win0_7.index t (0 : Fin 2) * 5000 + p.val
    omega
  | ⟨1, _⟩ =>
    show win0_0.index t (1 : Fin 2) * 128 + 1 * a.val = a.val
    omega

/-- The same for the second input window. -/
theorem rows1 (t : Fin cfg0.N) (X : S50000x128.Idx → EReal) (p : Fin 5000) (a : Fin 128) :
    ((cfg0.win 1).blk t).view.read (Elt Ideal) X (ix2 p a) = X (ix2 (rowOf t p) a) := by
  obtain ⟨-, -, e0, e1, -⟩ := idx_facts t
  show X (((cfg0.win 1).blk t).view.emb (ix2 p a)) = _
  refine congrArg X (funext fun d => Fin.ext ?_)
  match d with
  | ⟨0, _⟩ =>
    show win0_1.index t (0 : Fin 2) * 5000 + 1 * p.val = win0_7.index t (0 : Fin 2) * 5000 + p.val
    omega
  | ⟨1, _⟩ =>
    show win0_1.index t (1 : Fin 2) * 128 + 1 * a.val = a.val
    omega

/-- The third window's block is the whole 128×256 array under it, at every point. -/
theorem whole2 (t : Fin cfg0.N) (X : S128x256.Idx → EReal) : ((cfg0.win 2).blk t).view.read (Elt Ideal) X = X := by
  obtain ⟨-, -, -, -, e0, e1, -⟩ := idx_facts t
  funext y
  show X (((cfg0.win 2).blk t).view.emb y) = X y
  refine congrArg X (funext fun d => Fin.ext ?_)
  match d with
  | ⟨0, _⟩ =>
    show win0_2.index t (0 : Fin 2) * 128 + 1 * (y 0).val = (y 0).val
    omega
  | ⟨1, _⟩ =>
    show win0_2.index t (1 : Fin 2) * 256 + 1 * (y 1).val = (y 1).val
    omega

/-- The fourth window's block is the whole 1×256 row under it. -/
theorem whole3 (t : Fin cfg0.N) (X : S1x256.Idx → EReal) : ((cfg0.win 3).blk t).view.read (Elt Ideal) X = X := by
  obtain ⟨-, -, -, -, -, -, e0, e1, -⟩ := idx_facts t
  funext y
  show X (((cfg0.win 3).blk t).view.emb y) = X y
  refine congrArg X (funext fun d => Fin.ext ?_)
  match d with
  | ⟨0, _⟩ =>
    show win0_3.index t (0 : Fin 2) * 1 + 1 * (y 0).val = (y 0).val
    omega
  | ⟨1, _⟩ =>
    show win0_3.index t (1 : Fin 2) * 256 + 1 * (y 1).val = (y 1).val
    omega

/-- The fifth window's block is the whole 128×256 array under it. -/
theorem whole4 (t : Fin cfg0.N) (X : S128x256.Idx → EReal) : ((cfg0.win 4).blk t).view.read (Elt Ideal) X = X := by
  obtain ⟨-, -, -, -, -, -, -, -, e0, e1, -⟩ := idx_facts t
  funext y
  show X (((cfg0.win 4).blk t).view.emb y) = X y
  refine congrArg X (funext fun d => Fin.ext ?_)
  match d with
  | ⟨0, _⟩ =>
    show win0_4.index t (0 : Fin 2) * 128 + 1 * (y 0).val = (y 0).val
    omega
  | ⟨1, _⟩ =>
    show win0_4.index t (1 : Fin 2) * 256 + 1 * (y 1).val = (y 1).val
    omega

/-- The sixth window's block is the whole 256×40 array under it. -/
theorem whole5 (t : Fin cfg0.N) (X : S256x40.Idx → EReal) : ((cfg0.win 5).blk t).view.read (Elt Ideal) X = X := by
  obtain ⟨-, -, -, -, -, -, -, -, -, -, e0, e1, -⟩ := idx_facts t
  funext y
  show X (((cfg0.win 5).blk t).view.emb y) = X y
  refine congrArg X (funext fun d => Fin.ext ?_)
  match d with
  | ⟨0, _⟩ =>
    show win0_5.index t (0 : Fin 2) * 256 + 1 * (y 0).val = (y 0).val
    omega
  | ⟨1, _⟩ =>
    show win0_5.index t (1 : Fin 2) * 40 + 1 * (y 1).val = (y 1).val
    omega

/-- The seventh window's block is the whole 1×40 row under it. -/
theorem whole6 (t : Fin cfg0.N) (X : S1x40.Idx → EReal) : ((cfg0.win 6).blk t).view.read (Elt Ideal) X = X := by
  obtain ⟨-, -, -, -, -, -, -, -, -, -, -, -, e0, e1, -⟩ := idx_facts t
  funext y
  show X (((cfg0.win 6).blk t).view.emb y) = X y
  refine congrArg X (funext fun d => Fin.ext ?_)
  match d with
  | ⟨0, _⟩ =>
    show win0_6.index t (0 : Fin 2) * 1 + 1 * (y 0).val = (y 0).val
    omega
  | ⟨1, _⟩ =>
    show win0_6.index t (1 : Fin 2) * 40 + 1 * (y 1).val = (y 1).val
    omega

/-- Row `p` of point `t`'s block of neighbour means is row `rowOf t p` of the array. -/
theorem blk0_apply (c : Dev nD) (t : Fin cfg0.N) (p : Fin 5000) (a : Fin 128) :
    iblk m c 0 t (ix2 p a) = V m c main_v22 (ix2 (rowOf t p) a) :=
  rows0 t (V m c main_v22) p a

/-- Row `p` of point `t`'s block of node features is row `rowOf t p` of the array. -/
theorem blk1_apply (c : Dev nD) (t : Fin cfg0.N) (p : Fin 5000) (a : Fin 128) :
    iblk m c 1 t (ix2 p a) = V m c main_arg0 (ix2 (rowOf t p) a) :=
  rows1 t (V m c main_arg0) p a

/-- Every point is handed the whole first weight matrix, -/
theorem blk2_eq (c : Dev nD) (t : Fin cfg0.N) : (iblk m c 2 t : S128x256.Idx → EReal) = V m c main_v23 :=
  whole2 t (V m c main_v23)

/-- the whole first bias row, -/
theorem blk3_eq (c : Dev nD) (t : Fin cfg0.N) : (iblk m c 3 t : S1x256.Idx → EReal) = V m c main_v26 :=
  whole3 t (V m c main_v26)

/-- the whole second weight matrix, -/
theorem blk4_eq (c : Dev nD) (t : Fin cfg0.N) : (iblk m c 4 t : S128x256.Idx → EReal) = V m c main_v24 :=
  whole4 t (V m c main_v24)

/-- the whole output weight matrix, -/
theorem blk5_eq (c : Dev nD) (t : Fin cfg0.N) : (iblk m c 5 t : S256x40.Idx → EReal) = V m c main_v25 :=
  whole5 t (V m c main_v25)

/-- and the whole output bias row. -/
theorem blk6_eq (c : Dev nD) (t : Fin cfg0.N) : (iblk m c 6 t : S1x40.Idx → EReal) = V m c main_v27 :=
  whole6 t (V m c main_v27)

/-- Entry (p, q) of point `t`'s block of the result lies at (rowOf t p, q) of the array. -/
theorem emb7 (t : Fin cfg0.N) (p : Fin 5000) (q : Fin 40) :
    ((cfg0.win 7).blk t).view.emb (ix2 p q) = (ix2 (rowOf t p) q : S50000x40.Idx) := by
  obtain ⟨-, -, -, -, -, -, -, -, -, -, -, -, -, -, -, e1⟩ := idx_facts t
  funext d
  apply Fin.ext
  match d with
  | ⟨0, _⟩ =>
    show win0_7.index t (0 : Fin 2) * 5000 + 1 * p.val = win0_7.index t (0 : Fin 2) * 5000 + p.val
    omega
  | ⟨1, _⟩ =>
    show win0_7.index t (1 : Fin 2) * 40 + 1 * q.val = q.val
    omega

/-! ## What a point writes back, and the array after the run -/

/-- A block of the result against the array, for ARBITRARY contents: if entry (p, q) of a block `X` is entry
    (rowOf t p, q) of an array `Y`, then what point `t` writes back of `X` is block `t` of `Y`. -/
theorem block7 (t : Fin cfg0.N) (X : S5000x40.Idx → EReal) (Y : S50000x40.Idx → EReal)
    (h : ∀ (p : Fin 5000) (q : Fin 40), X (ix2 p q) = Y (ix2 (rowOf t p) q)) :
    (cfg0.win 7).cut (grid0.coords t) X = ((cfg0.win 7).blk t).view.read (Elt Ideal) Y := by
  funext y
  obtain ⟨p, q, rfl⟩ : ∃ (p : Fin 5000) (q : Fin 40), y = ix2 p q := ⟨y 0, y 1, eq_ix2 y⟩
  show X (ix2 p q) = Y (((cfg0.win 7).blk t).view.emb (ix2 p q))
  rw [emb7 t p q]
  exact h p q

/-- The body's stored value at (p, q) of point `t`'s block is the layer's output at (rowOf t p, q). -/
theorem stored_apply (c : Dev nD) (t : Fin cfg0.N) (p : Fin 5000) (q : Fin 40) :
    k0_pay1 (iblk m c 0 t) (iblk m c 1 t) (iblk m c 2 t) (iblk m c 4 t) (iblk m c 5 t) (iblk m c 3 t) (iblk m c 6 t) (ix2 p q)
      = G m c (ix2 (rowOf t p) q) := by
  unfold G
  rw [Cert.Sage.out_ix2]
  refine (Payload.pay_apply (iblk m c 0 t) (iblk m c 1 t) (iblk m c 2 t) (iblk m c 4 t) (iblk m c 5 t) (iblk m c 3 t)
    (iblk m c 6 t) p q).trans ?_
  rw [blk2_eq m c t, blk3_eq m c t, blk4_eq m c t, blk5_eq m c t, blk6_eq m c t]
  exact Cert.Sage.outAt_rows (rowOf t) (V m c main_v22) (V m c main_arg0) (iblk m c 0 t) (iblk m c 1 t)
    (V m c main_v23) (V m c main_v24) (fun k => V m c main_v26 (ix2 0 k)) (V m c main_v25)
    (fun j => V m c main_v27 (ix2 0 j)) (blk0_apply m c t) (blk1_apply m c t) p q

/-- WHAT POINT `t` WRITES BACK is block `t` of the layer's output of the arrays as the region finds them. -/
theorem flushed_eq (c : Dev nD) (t : Fin cfg0.N) :
    (dats m 0 c).flushed 7 t = ((cfg0.win 7).blk t).view.read (Elt Ideal) (G m c) := by
  rw [Cert.KernelIdeal.Value.flushed7]
  unfold out0_7
  rw [View.canon_unit_zero hz]
  simp only [View.ld_unit_zero (S := S5000x128) hz, View.ld_unit_zero (S := S128x256) hz,
    View.ld_unit_zero (S := S256x40) hz, View.ld_unit_zero (S := S1x256) hz, View.ld_unit_zero (S := S1x40) hz]
  have h := stored_apply m c t
  generalize k0_pay1 (iblk m c 0 t) (iblk m c 1 t) (iblk m c 2 t) (iblk m c 4 t) (iblk m c 5 t) (iblk m c 3 t)
    (iblk m c 6 t) = X at h ⊢
  generalize G m c = Y at h ⊢
  exact block7 t X Y h

/-- An index of the array is in point `t`'s block iff each coordinate is in the block's range on its axis. -/
theorem mem_blk (t : Fin cfg0.N) (i : S50000x40.Idx) :
    i ∈ ((cfg0.win 7).blk t).view.set ↔ ∀ a : Fin 2, win0_7.index t a * S5000x40.size a ≤ (i a).val
      ∧ (i a).val < win0_7.index t a * S5000x40.size a + S5000x40.size a := by
  show i ∈ ((View.whole main_v28).slice (win0_7.rect t)).set ↔ _
  rw [View.set_slice_whole, Rect.mem_set_unit]
  exact Iff.rfl

/-- The ten blocks of rows tile the array: row r is in the block of point r / 5000. -/
theorem cover (i : S50000x40.Idx) :
    ∃ t : Fin cfg0.N, (cfg0.win 7).flush t = true ∧ i ∈ ((cfg0.win 7).blk t).view.set := by
  have hi0 : (i 0).val < 50000 := idx2_lt0 i
  have hi1 : (i 1).val < 40 := idx2_lt1 i
  obtain ⟨t, ht⟩ := idx_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk]
  intro a
  match a with
  | ⟨0, _⟩ =>
    show win0_7.index t (0 : Fin 2) * 5000 ≤ (i 0).val ∧ (i 0).val < win0_7.index t (0 : Fin 2) * 5000 + 5000
    omega
  | ⟨1, _⟩ =>
    show win0_7.index t (1 : Fin 2) * 40 ≤ (i 1).val ∧ (i 1).val < win0_7.index t (1 : Fin 2) * 40 + 40
    omega

/-- THE RESULT ARRAY after the run is the layer's output of the arrays as the region finds them. -/
theorem final (c : Dev nD) : (dats m 0 c).arrAt 7 cfg0.N = G m c :=
  (dats m 0 c).arrAt_eq_of_cover 7 (G m c) (fun t _ => flushed_eq m c t) cover

/-- The kernel's run, with its result array named. -/
theorem run : θ_run defs (onTc (τ := τ) (main (F := Ideal))) ⟨m, fun _ => 0, ρ⟩ fun r => ∀ c : Dev nD,
      r.2.mem ((c : Thread nD τ).loc main_v28) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Fused

end
-- ==== Proof.KernelInputs.lean ====
/-
  The arrays the region finds, as functions of the program's arguments.

  Before the region the host computes, from the node features `x` and the edge list: the mean of each node's
  in-neighbours' features — gather the source rows, add each into its destination row, divide by the in-degree
  clamped below at 1. These are, operation for operation, the reference's own first stages, so the array is the
  reference's stage for the mean, whatever the scatter does at any particular edge list: nothing about the
  gather or the scatter is opened. The three weight matrices are transposed exactly as the reference transposes
  them. The two biases are reshaped from vectors to 1×n rows, and a row's entry (0, k) is the vector's entry k.
-/
import proofs.«174425_j49323404427444_1_alg».proof.Proof.Gen.KernelIdeal.Frame
import proofs.«174425_j49323404427444_1_alg».proof.Proof.Gen.ReferenceIdeal.Read
import proofs.«174425_j49323404427444_1_alg».proof.Proof.LibRowVector
import Idealize.ShloMosaic.Lib.StableHlo.Run

noncomputable section

namespace Cert.KernelIdeal.Inputs

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first input window's array is the mean of the in-neighbours' features: the reference's stage for it. -/
theorem V_mean (c : Dev nD) :
    (V m c main_v22 : S50000x128.Idx → EReal)
      = Cert.ReferenceIdeal.Read.val_main_v22 (F := Ideal) (m ((c : Thread nD τ).loc main_arg0))
          (m ((c : Thread nD τ).loc main_arg6)) := by
  dsimp only [Gen.V, Gen.hostOps0]
  after_results_simp
  rfl

/-- The first weight matrix, transposed: the reference's stage for it. -/
theorem V_wl (c : Dev nD) :
    (V m c main_v23 : S128x256.Idx → EReal)
      = Cert.ReferenceIdeal.Read.val_main_v23 (F := Ideal) (m ((c : Thread nD τ).loc main_arg1)) := by
  dsimp only [Gen.V, Gen.hostOps0]
  after_results_simp
  rfl

/-- The second weight matrix, transposed: the reference's stage for it. -/
theorem V_wr (c : Dev nD) :
    (V m c main_v24 : S128x256.Idx → EReal)
      = Cert.ReferenceIdeal.Read.val_main_v28 (F := Ideal) (m ((c : Thread nD τ).loc main_arg3)) := by
  dsimp only [Gen.V, Gen.hostOps0]
  after_results_simp
  rfl

/-- The output weight matrix, transposed: the reference's stage for it. -/
theorem V_wm (c : Dev nD) :
    (V m c main_v25 : S256x40.Idx → EReal)
      = Cert.ReferenceIdeal.Read.val_main_v32 (F := Ideal) (m ((c : Thread nD τ).loc main_arg4)) := by
  dsimp only [Gen.V, Gen.hostOps0]
  after_results_simp
  rfl

/-- The first bias as a 1×256 row. -/
theorem V_bl_row (c : Dev nD) :
    (V m c main_v26 : S1x256.Idx → EReal)
      = shapeCast S1x256 (m ((c : Thread nD τ).loc main_arg2)) shapeCasts_S256_S1x256 := by
  dsimp only [Gen.V, Gen.hostOps0]
  after_results_simp
  rfl

/-- Its entry (0, k) is the bias vector's entry k. -/
theorem V_bl (c : Dev nD) (k : Fin 256) :
    V m c main_v26 (ix2 0 k) = m ((c : Thread nD τ).loc main_arg2) (ix1 k) :=
  (congrFun (V_bl_row m c) (ix2 0 k)).trans (Cert.RowVector.shapeCast_row _ _ k)

/-- The output bias as a 1×40 row. -/
theorem V_bm_row (c : Dev nD) :
    (V m c main_v27 : S1x40.Idx → EReal)
      = shapeCast S1x40 (m ((c : Thread nD τ).loc main_arg5)) shapeCasts_S40_S1x40 := by
  dsimp only [Gen.V, Gen.hostOps0]
  after_results_simp
  rfl

/-- Its entry (0, j) is the bias vector's entry j. -/
theorem V_bm (c : Dev nD) (j : Fin 40) :
    V m c main_v27 (ix2 0 j) = m ((c : Thread nD τ).loc main_arg5) (ix1 j) :=
  (congrFun (V_bm_row m c) (ix2 0 j)).trans (Cert.RowVector.shapeCast_row _ _ j)

end Cert.KernelIdeal.Inputs

end
-- ==== Proof.RefValue.lean ====
/-
  The reference's result, entry by entry.

  The reference computes the mean of the in-neighbours' features, multiplies it by the first weight matrix
  (transposed), adds the bias, adds the node's own features times the second weight matrix (transposed),
  rectifies, multiplies by the output weight matrix (transposed) and adds the output bias. Each matrix product
  on the host is, at the ideal values, the sum over the contracted coordinate; each bias is a vector copied along
  the rows. At entry (r, j) that is

      Σ_k max( Σ_a mean(r, a)·wl(a, k) + bl(k) + Σ_a x(r, a)·wr(a, k), 0 ) · wm(k, j) + bm(j),

  the layer's output (`Cert.Sage.out`) with the bias added between the two products instead of after them:
  the same extended real, by commutativity and associativity of addition alone.
-/
import proofs.«174425_j49323404427444_1_alg».proof.Proof.Gen.ReferenceIdeal.Read
import proofs.«174425_j49323404427444_1_alg».proof.Proof.SageSpec
import proofs.«174425_j49323404427444_1_alg».proof.Proof.LibPlainDot
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-- The output with the bias added between the two products is the layer's output. -/
theorem outAt_bias_between (mean x : (⟨2, ![50000, 128]⟩ : Shape).Idx → EReal)
    (wl wr : (⟨2, ![128, 256]⟩ : Shape).Idx → EReal) (bl : Fin 256 → EReal)
    (wm : (⟨2, ![256, 40]⟩ : Shape).Idx → EReal) (bm : Fin 40 → EReal) (r : Fin 50000) (j : Fin 40) :
    (∑ k : Fin 256, max ((∑ a : Fin 128, mean (ix2 r a) * wl (ix2 a k)) + bl k
        + (∑ a : Fin 128, x (ix2 r a) * wr (ix2 a k))) 0 * wm (ix2 k j)) + bm j
      = Cert.Sage.outAt mean x wl wr bl wm bm r j := by
  unfold Cert.Sage.outAt
  simp only [Cert.Sage.hiddenAt_bias_between]

/-- The reference's result as a function of its arguments: the layer's output of the mean stage, the node features,
    the three transposed weight matrices and the two bias vectors. Kept opaque: opened by name, at one entry. -/
@[irreducible] def result (x0 : (⟨S50000x128, .f32⟩ : BufTy).Contents (Elt Ideal)) (x1 : (⟨S256x128, .f32⟩ : BufTy).Contents (Elt Ideal))
    (x2 : (⟨S256, .f32⟩ : BufTy).Contents (Elt Ideal)) (x3 : (⟨S256x128, .f32⟩ : BufTy).Contents (Elt Ideal))
    (x4 : (⟨S40x256, .f32⟩ : BufTy).Contents (Elt Ideal)) (x5 : (⟨S40, .f32⟩ : BufTy).Contents (Elt Ideal))
    (x6 : (⟨S2x800000, .i32⟩ : BufTy).Contents (Elt Ideal)) : S50000x40.Idx → EReal :=
  Cert.Sage.out (R := 50000) (val_main_v22 (F := Ideal) x0 x6) x0 (val_main_v23 (F := Ideal) x1) (val_main_v28 (F := Ideal) x3)
    (fun k => x2 (ix1 k)) (val_main_v32 (F := Ideal) x4) (fun j => x5 (ix1 j))

/-! ## The reference's operations read at an entry, over ARBITRARY operands -/

/-- The first layer's dimension numbers are the plain 50000×128 by 128×256 product's. -/
theorem dot1_plain : dot_S50000x128_S128x256_S50000x256_1_0_0_1_n_n = DotDims.plain 50000 128 256 := rfl

/-- The output layer's dimension numbers are the plain 50000×256 by 256×40 product's. -/
theorem dot3_plain : dot_S50000x256_S256x40_S50000x40_1_0_0_1_n_n = DotDims.plain 50000 256 40 := rfl

/-- A first-layer product on the host at (r, k): the sum over the 128 features. -/
theorem dot1_apply (A : FVec Ideal S50000x128 .f32) (B : FVec Ideal S128x256 .f32) (r : Fin 50000) (k : Fin 256) :
    Host.dotGeneral dot_S50000x128_S128x256_S50000x256_1_0_0_1_n_n none A B (ix2 r k)
      = ∑ a : Fin 128, A (ix2 r a) * B (ix2 a k) :=
  Cert.PlainDot.dotGeneral_apply _ dot1_plain none .single A B r k

/-- The output-layer product on the host at (r, j): the sum over the 256 hidden units. -/
theorem dot3_apply (A : FVec Ideal S50000x256 .f32) (B : FVec Ideal S256x40 .f32) (r : Fin 50000) (j : Fin 40) :
    Host.dotGeneral dot_S50000x256_S256x40_S50000x40_1_0_0_1_n_n none A B (ix2 r j)
      = ∑ k : Fin 256, A (ix2 r k) * B (ix2 k j) :=
  Cert.PlainDot.dotGeneral_apply _ dot3_plain none .single A B r j

/-- The first bias copied along the rows, at (r, k): the bias vector's entry k. -/
theorem bias256_apply (x2 : FVec Ideal S256 .f32) (r : Fin 50000) (k : Fin 256) :
    broadcastInDim S50000x256 ![0, 1] bcast_S1x256_S50000x256_0_1 (broadcastInDim S1x256 ![1] bcast_S256_S1x256_1 x2) (ix2 r k)
      = x2 (ix1 k) :=
  (broadcastInDim_apply _ bcast_S1x256_S50000x256_0_1 _ (ix2 r k) (ix2 0 k) (fun a => match a with
    | ⟨0, _⟩ => by show (0 : Nat) = if (1 : Nat) = 1 then 0 else r.val; rw [if_pos rfl]
    | ⟨1, _⟩ => by show k.val = if (256 : Nat) = 1 then 0 else k.val; rw [if_neg (by decide)])).trans
  (broadcastInDim_apply _ bcast_S256_S1x256_1 x2 (ix2 0 k) (ix1 k) (fun a => match a with
    | ⟨0, _⟩ => by show k.val = if (256 : Nat) = 1 then 0 else k.val; rw [if_neg (by decide)]))

/-- The output bias copied along the rows, at (r, j): the bias vector's entry j. -/
theorem bias40_apply (x5 : FVec Ideal S40 .f32) (r : Fin 50000) (j : Fin 40) :
    broadcastInDim S50000x40 ![0, 1] bcast_S1x40_S50000x40_0_1 (broadcastInDim S1x40 ![1] bcast_S40_S1x40_1 x5) (ix2 r j)
      = x5 (ix1 j) :=
  (broadcastInDim_apply _ bcast_S1x40_S50000x40_0_1 _ (ix2 r j) (ix2 0 j) (fun a => match a with
    | ⟨0, _⟩ => by show (0 : Nat) = if (1 : Nat) = 1 then 0 else r.val; rw [if_pos rfl]
    | ⟨1, _⟩ => by show j.val = if (40 : Nat) = 1 then 0 else j.val; rw [if_neg (by decide)])).trans
  (broadcastInDim_apply _ bcast_S40_S1x40_1 x5 (ix2 0 j) (ix1 j) (fun a => match a with
    | ⟨0, _⟩ => by show j.val = if (40 : Nat) = 1 then 0 else j.val; rw [if_neg (by decide)]))

/-- The rectifier's zero, copied everywhere, is the extended real 0. -/
theorem zero_apply (i : S50000x256.Idx) :
    broadcastInDim S50000x256 ![] bcast_S_S50000x256 (constant (F := Ideal) S_ .f32 0x00000000#32) i = 0 := by
  unfold broadcastInDim
  show Ideal.ofBits .f32 0x00000000#32 = 0
  exact Ideal.ofBits_zero_f32

/-- THE REFERENCE'S CLOSED TERM over arbitrary operands, at (r, j), is the layer's output there. -/
theorem term_apply (mean x0 : FVec Ideal S50000x128 .f32) (wl wr : FVec Ideal S128x256 .f32) (x2 : FVec Ideal S256 .f32)
    (wm : FVec Ideal S256x40 .f32) (x5 : FVec Ideal S40 .f32) (r : Fin 50000) (j : Fin 40) :
    addf (Host.dotGeneral dot_S50000x256_S256x40_S50000x40_1_0_0_1_n_n none
        (maximumf
          (addf
            (addf (Host.dotGeneral dot_S50000x128_S128x256_S50000x256_1_0_0_1_n_n none mean wl)
              (broadcastInDim S50000x256 ![0, 1] bcast_S1x256_S50000x256_0_1 (broadcastInDim S1x256 ![1] bcast_S256_S1x256_1 x2)))
            (Host.dotGeneral dot_S50000x128_S128x256_S50000x256_1_0_0_1_n_n none x0 wr))
          (broadcastInDim S50000x256 ![] bcast_S_S50000x256 (constant (F := Ideal) S_ .f32 0x00000000#32)))
        wm)
      (broadcastInDim S50000x40 ![0, 1] bcast_S1x40_S50000x40_0_1 (broadcastInDim S1x40 ![1] bcast_S40_S1x40_1 x5)) (ix2 r j)
    = Cert.Sage.outAt (R := 50000) mean x0 wl wr (fun k => x2 (ix1 k)) wm (fun j => x5 (ix1 j)) r j := by
  rw [← outAt_bias_between, addf_apply, dot3_apply, bias40_apply]
  refine congrArg (· + x5 (ix1 j)) (Finset.sum_congr rfl fun k _ => ?_)
  rw [maximumf_apply, addf_apply, addf_apply, dot1_apply, dot1_apply, bias256_apply, zero_apply]

/-- THE REFERENCE'S LAST STAGE is that function of the arguments: its stages, opened down to the mean and the three
    transposed weight matrices, are the closed term above. -/
theorem val_eq (x0 : (⟨S50000x128, .f32⟩ : BufTy).Contents (Elt Ideal)) (x1 : (⟨S256x128, .f32⟩ : BufTy).Contents (Elt Ideal))
    (x2 : (⟨S256, .f32⟩ : BufTy).Contents (Elt Ideal)) (x3 : (⟨S256x128, .f32⟩ : BufTy).Contents (Elt Ideal))
    (x4 : (⟨S40x256, .f32⟩ : BufTy).Contents (Elt Ideal)) (x5 : (⟨S40, .f32⟩ : BufTy).Contents (Elt Ideal))
    (x6 : (⟨S2x800000, .i32⟩ : BufTy).Contents (Elt Ideal)) :
    val_main_v36 (F := Ideal) x0 x1 x2 x3 x4 x5 x6 = result x0 x1 x2 x3 x4 x5 x6 := by
  funext i
  obtain ⟨r, j, rfl⟩ : ∃ (r : Fin 50000) (j : Fin 40), i = ix2 r j := ⟨i 0, i 1, eq_ix2 i⟩
  unfold result
  rw [Cert.Sage.out_ix2]
  delta val_main_v36 val_main_v35 val_main_v34 val_main_v33 val_main_v31 val_main_call0_v0 val_main_call0_cst
    val_main_v30 val_main_v29 val_main_v27 val_main_v26 val_main_v25 val_main_v24
  exact term_apply (val_main_v22 (F := Ideal) x0 x6) x0 (val_main_v23 (F := Ideal) x1) (val_main_v28 (F := Ideal) x3) x2
    (val_main_v32 (F := Ideal) x4) x5 r j

end Cert.ReferenceIdeal.RefValue

end
-- ==== Proof.Bridge.lean ====
/-
  The kernel's result array and the reference's result are one function of the arguments.

  After the kernel's run the result array is the layer's output of the arrays the region finds
  (`Cert.KernelIdeal.Fused.G`); those arrays are the reference's own stages of the arguments — the neighbour
  mean, the three transposed weight matrices — and the two biases read as vectors (`Cert.KernelIdeal.Inputs`).
  Substituting them gives the reference's result function (`Cert.ReferenceIdeal.RefValue.result`) of the same
  arguments, term for term.
-/
import proofs.«174425_j49323404427444_1_alg».proof.Proof.KernelValue
import proofs.«174425_j49323404427444_1_alg».proof.Proof.KernelInputs
import proofs.«174425_j49323404427444_1_alg».proof.Proof.RefValue

noncomputable section

namespace Cert.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The kernel's result array is the reference's result function of the kernel's arguments. -/
theorem kernel_result (c : Dev nD) :
    Cert.KernelIdeal.Fused.G m c
      = Cert.ReferenceIdeal.RefValue.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  unfold Cert.KernelIdeal.Fused.G Cert.ReferenceIdeal.RefValue.result
  rw [Cert.KernelIdeal.Inputs.V_mean m c, Cert.KernelIdeal.Inputs.V_wl m c, Cert.KernelIdeal.Inputs.V_wr m c,
    Cert.KernelIdeal.Inputs.V_wm m c, Cert.KernelIdeal.Gen.V_main_arg0 m c]
  simp only [Cert.KernelIdeal.Inputs.V_bl m c, Cert.KernelIdeal.Inputs.V_bm m c]

end Cert.Bridge

end
-- ==== Proof.lean ====
/-
  A graph layer — mean aggregation over in-neighbours, two linear maps, a rectifier, an output linear map — computed
  by a fused kernel and by a plain reference: equal results on the extended reals.

  Both programs first compute, on the host and by the same operations, the mean of every node's in-neighbours'
  features: gather the source rows of the edges, add each into its destination row, divide by the in-degree
  clamped below at 1. From there, with `mean` that array, `x` the node features and the weights as given,

      hidden(r, k) = Σ_a mean(r, a)·W_l(k, a) + Σ_a x(r, a)·W_r(k, a) + b_l(k)
      out(r, j)    = Σ_k max(hidden(r, k), 0)·W_mlp(j, k) + b_mlp(j).

  The kernel computes `out` block of 5000 rows by block of 5000 rows, ten blocks tiling the 50000 rows, each from the
  same rows of `mean` and `x` and the whole of the weights; its matrix products round their operands to a shorter
  float format first, which on the extended reals is the identity, and accumulate into zero. The reference computes
  `out` for all rows at once and adds b_l between the two products instead of after them. Addition of extended
  reals is commutative and associative, so the two groupings are the same number at every entry; nothing else
  differs, and no finiteness of the inputs is used. The gather and the scatter are never opened: they are the same
  term of the arguments on both sides.

  The three frame claims are the generated frames of the two kernel programs and the reference's generated run;
  the idealization rewrote no operation, so `preserves` asks nothing.
-/
import proofs.«174425_j49323404427444_1_alg».proof.Defs
import proofs.«174425_j49323404427444_1_alg».proof.Proof.Gen.Kernel
import proofs.«174425_j49323404427444_1_alg».proof.Proof.Gen.Kernel.Skeleton
import proofs.«174425_j49323404427444_1_alg».proof.Proof.Gen.Kernel.Launch
import proofs.«174425_j49323404427444_1_alg».proof.Proof.Gen.Kernel.Points
import proofs.«174425_j49323404427444_1_alg».proof.Proof.Gen.Kernel.Frame
import proofs.«174425_j49323404427444_1_alg».proof.Proof.Gen.KernelIdeal
import proofs.«174425_j49323404427444_1_alg».proof.Proof.Gen.KernelIdeal.Skeleton
import proofs.«174425_j49323404427444_1_alg».proof.Proof.Gen.KernelIdeal.Launch
import proofs.«174425_j49323404427444_1_alg».proof.Proof.Gen.KernelIdeal.Points
import proofs.«174425_j49323404427444_1_alg».proof.Proof.Gen.KernelIdeal.Frame
import proofs.«174425_j49323404427444_1_alg».proof.Proof.Gen.ReferenceIdeal
import proofs.«174425_j49323404427444_1_alg».proof.Proof.Gen.Pre_finite_inputs
import proofs.«174425_j49323404427444_1_alg».proof.Proof.Gen.KernelIdeal.Value
import proofs.«174425_j49323404427444_1_alg».proof.Proof.Gen.ReferenceIdeal.Run
import proofs.«174425_j49323404427444_1_alg».proof.Proof.Gen.ReferenceIdeal.Read
import proofs.«174425_j49323404427444_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array and the reference's result are the same
    function of those arguments: the layer's output, the reference's with the first bias added between the two
    products instead of after them. -/
theorem algebraic : Cert.algebraic_KernelIdeal_ReferenceIdeal := by
  intro m ρ m' ρ' _ hagree
  refine ⟨fun c => Cert.KernelIdeal.Fused.G m c, Cert.KernelIdeal.Fused.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.val_eq,
    (hagree c).1, (hagree c).2.1, (hagree c).2.2.1, (hagree c).2.2.2.1, (hagree c).2.2.2.2.1, (hagree c).2.2.2.2.2.1,
    (hagree c).2.2.2.2.2.2]
  exact (Cert.Bridge.kernel_result m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
